-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S128 .f32) (main_arg6 : FVec F S128x10 .f32) (main_arg7 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg6
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : IVec S2x1600000 32) (main_arg1 : FVec F S100000x128 .f32) (main_arg2 : FVec F S128x128 .f32) (main_arg3 : FVec F S128 .f32) (main_arg4 : FVec F S128x128 .f32) (main_arg5 : FVec F S128 .f32) (main_arg6 : FVec F S128x10 .f32) (main_arg7 : FVec F S10 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x10 : Shape := ⟨2, ![1, 10]⟩
abbrev S100000x10 : Shape := ⟨2, ![100000, 10]⟩
abbrev S5000x10 : Shape := ⟨2, ![5000, 10]⟩

abbrev nBuf : Space → Nat
  | .hbm => 89
  | .vmem => 18
  | .smem => 0
  | _ => 0

abbrev bufTy : (tb : Table) → Fin (tcTables nBuf tb) → BufTy
  | .hbm, ⟨0, _⟩ => ⟨S2x1600000, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S1x10, .f32⟩
  | .hbm, ⟨88, _⟩ => ⟨S100000x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x10, .f32⟩
  | .local _ .vmem, ⟨15, _⟩ => ⟨S1x10, .f32⟩
  | .local _ .vmem, ⟨16, _⟩ => ⟨S5000x10, .f32⟩
  | .local _ .vmem, ⟨17, _⟩ => ⟨S5000x10, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x10 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x10_S5000x10_1_0_0_1_n_n_wf : DotDims.WF S5000x128 S128x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x10.size a ≤ S128x10.size a
  hwx2_2 : ∀ i : grid2.Coords, EltTy.bits .f32 = 32 ∨ (Rect.block (s := S128x10) S128x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x10.size a ≤ S100000x10.size a
  hwx2_4 : ∀ i : grid2.Coords, EltTy.bits .f32 = 32 ∨ (Rect.block (s := S100000x10) S5000x10.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S5000x10.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x10 : Shape := ⟨2, ![100000, 10]⟩
abbrev S1x10 : Shape := ⟨2, ![1, 10]⟩

abbrev nBuf : Space → Nat
  | .hbm => 101
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x10, .f32⟩
  | .hbm, ⟨98, _⟩ => ⟨S1x10, .f32⟩
  | .hbm, ⟨99, _⟩ => ⟨S100000x10, .f32⟩
  | .hbm, ⟨100, _⟩ => ⟨S100000x10, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x10_S100000x10_1_0_0_1_n_n_wf : DotDims.WF S100000x128 S128x10 S100000x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf

class Facts : Prop extends Facts₀ where

variable [Facts]
-- ==== Proof.Stages.lean ====
/-
  The network, stage by stage, as functions of @main's arguments — the one vocabulary both programs are read in.

  Both programs do the same graph bookkeeping on the host, with the same operations:
  * `src`, `dst`   — the 1600000 edge sources (targets) followed by the 100000 self loops 0 … 99999;
  * `wrap v`        — the index column a gather takes: v + 100000 where v is negative, v elsewhere, as [1700000, 1];
  * `deg`           — a 1 added into node dst(e) for every edge e;
  * `isq`           — where deg > 0, rsqrt(max(deg, 1)), else 0;
  * `norm`          — per edge, isq at its source times isq at its target;
  * `aggr H`        — row src(e) of H, scaled by norm(e), added into row dst(e) of a zero array: one round of
                       message passing over the rows of an [100000, 128] array H;
  * `hidden Z b`    — the bias vector b added to every row of Z, then the maximum with zero.
  The whole network is then
      out = hidden(aggr(hidden(aggr(X·W1), b1)·W2), b2)·Wout + bout   (the last bias added to every row).
  The aggregation is never opened: each program applies it to an array, and the two arrays are shown equal.
-/
import proofs.«179236_j27951647163111_1_alg».proof.Proof.Gen.ReferenceIdeal

noncomputable section

namespace Cert.Stages

open Cert.ReferenceIdeal Cert.ReferenceIdeal.Gen Idealize.ShloMosaic Idealize.ShloMosaic.TcCoe

/-- Row `r` of the edge list, then the self loops. -/
def src (x0 : IVec S2x1600000 32) : IVec S1700000 32 :=
  concatenate S1700000 0 [⟨S1600000, (shapeCast _ (extractStridedSlice S1x1600000 ![0, 0] x0 slices_S2x1600000_S1x1600000_0_0) shapeCasts_S1x1600000_S1600000)⟩, ⟨S100000, (iotaInDim S100000 32 0)⟩] concatenates_S1600000_S100000_S1700000_d0

def dst (x0 : IVec S2x1600000 32) : IVec S1700000 32 :=
  concatenate S1700000 0 [⟨S1600000, (shapeCast _ (extractStridedSlice S1x1600000 ![1, 0] x0 slices_S2x1600000_S1x1600000_1_0) shapeCasts_S1x1600000_S1600000)⟩, ⟨S100000, (iotaInDim S100000 32 0)⟩] concatenates_S1600000_S100000_S1700000_d0

/-- The index column of a gather: negative indices wrapped once, as a [1700000, 1] column. -/
def wrap (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

variable (F : FTy → Type) [FloatOps F]

/-- The node degrees: a one added into each edge's target. -/
def deg (x0 : IVec S2x1600000 32) : FVec F S100000 .f32 :=
  Host.scatterAdd (F := F) scatter_S100000_S1700000x1_S1700000_n_0_0_1 (broadcastInDim S100000 ![] bcast_S_S100000 (constant S_ .f32 0x00000000#32)) (broadcastInDim S1700000x1 ![0] bcast_S1700000_S1700000x1_0 (dst x0)) (broadcastInDim S1700000 ![] bcast_S_S1700000 (constant S_ .f32 0x3F800000#32))

/-- The inverse square root of the degree where it is positive, zero elsewhere. -/
def isq (x0 : IVec S2x1600000 32) : FVec F S100000 .f32 :=
  select (cmpf .ogt (deg F x0) (broadcastInDim S100000 ![] bcast_S_S100000 (constant S_ .f32 0x00000000#32)))
    (Host.rsqrt (maximumf (deg F x0) (broadcastInDim S100000 ![] bcast_S_S100000 (constant S_ .f32 0x3F800000#32))))
    (broadcastInDim S100000 ![] bcast_S_S100000 (id (constant S_ .f32 0x00000000#32)))

/-- The edge weights. -/
def norm (x0 : IVec S2x1600000 32) : FVec F S1700000 .f32 :=
  mulf (Host.gather gather_S100000_S1700000x1_S1700000_n_0_n_n_0_1_1 (isq F x0) (wrap (src x0)))
    (Host.gather gather_S100000_S1700000x1_S1700000_n_0_n_n_0_1_1 (isq F x0) (wrap (dst x0)))

/-- One round of message passing over the rows of `H`. -/
def aggr (x0 : IVec S2x1600000 32) (H : FVec F S100000x128 .f32) : FVec F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 (dst x0))
    (mulf (Host.gather gather_S100000x128_S1700000x1_S1700000x128_1_0_n_n_0_1_1128 H (wrap (src x0)))
      (broadcastInDim S1700000x128 ![0, 1] bcast_S1700000x1_S1700000x128_0_1
        (broadcastInDim S1700000x1 ![0] bcast_S1700000_S1700000x1_0 (norm F x0))))

/-- The bias vector added to every row, then the maximum with zero. -/
def hidden (Z : FVec F S100000x128 .f32) (b : FVec F S128 .f32) : FVec F S100000x128 .f32 :=
  maximumf (addf Z (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The three dense layers. -/
def h1 (x1 : FVec F S100000x128 .f32) (x2 : FVec F S128x128 .f32) : FVec F S100000x128 .f32 :=
  Host.dotGeneral dot_S100000x128_S128x128_S100000x128_1_0_0_1_n_n none x1 x2

def h2 (x0 : IVec S2x1600000 32) (x1 : FVec F S100000x128 .f32) (x2 : FVec F S128x128 .f32) (x3 : FVec F S128 .f32)
    (x4 : FVec F S128x128 .f32) : FVec F S100000x128 .f32 :=
  Host.dotGeneral dot_S100000x128_S128x128_S100000x128_1_0_0_1_n_n none (hidden F (aggr F x0 (h1 F x1 x2)) x3) x4

/-- The network's result. -/
def out (x0 : IVec S2x1600000 32) (x1 : FVec F S100000x128 .f32) (x2 : FVec F S128x128 .f32) (x3 : FVec F S128 .f32)
    (x4 : FVec F S128x128 .f32) (x5 : FVec F S128 .f32) (x6 : FVec F S128x10 .f32) (x7 : FVec F S10 .f32) :
    FVec F S100000x10 .f32 :=
  addf (Host.dotGeneral dot_S100000x128_S128x10_S100000x10_1_0_0_1_n_n none (hidden F (aggr F x0 (h2 F x0 x1 x2 x3 x4)) x5) x6)
    (broadcastInDim S100000x10 ![0, 1] bcast_S1x10_S100000x10_0_1 (broadcastInDim S1x10 ![1] bcast_S10_S1x10_1 x7))

end Cert.Stages

end
-- ==== Proof.RefValue.lean ====
/-
  The reference's result, as the run states it, is the network `Cert.Stages.out` of @main's arguments: the run's term
  is the composition of the reference's operations, and unfolding the stages gives that composition back.
-/
import proofs.«179236_j27951647163111_1_alg».proof.Proof.RefRunP
import proofs.«179236_j27951647163111_1_alg».proof.Proof.Stages

set_option maxRecDepth 16384

noncomputable section

namespace Cert.ReferenceIdeal.RefValue

open Cert.ReferenceIdeal Idealize.ShloMosaic Idealize.ShloMosaic.TcCoe Idealize.SL.Sem

variable {F : FTy → Type} [FloatOps F]

theorem res_eq (m : (ℓ : Loc nD τ sig) → Buf (Elt F) ℓ) (c : Dev nD) :
    Cert.ReferenceIdeal.ValueP.res_main_v71 m c
      = Cert.Stages.out F (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v71
  rfl

end Cert.ReferenceIdeal.RefValue

end
-- ==== Proof.KernelRun.lean ====
/-
  The idealized kernel's run with its RESULT named.

  @main is eight segments: three stretches of host operations, the first kernel's region, a stretch, the second
  region, a stretch, the third region. The contents of the TensorCore's buffers at each boundary are a fold through
  @main from the launch memory; the last boundary's contents are `W8`. Every weakly fair execution terminates,
  nothing faulting, in a state whose unscoped buffers hold `W8`: in particular the result buffer holds `W8` at the
  result, and each argument holds what it was launched with.
-/
import proofs.«179236_j27951647163111_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents and the
    arguments as launched. -/
theorem run : θ_run defs (onTc (τ := τ) (main (F := F))) ⟨m, fun _ => 0, ρ⟩ (fun r => ∀ c : Dev nD,
      r.2.mem ((c.tc : Thread nD τ).loc main_v63) = W8 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Named

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.Blocks.lean ====
/-
  What each of the three kernels leaves in its output block, as a function of its input blocks, element by element,
  on the extended reals.

  Every body loads its whole input blocks, computes, and stores one whole output block. Changing the float format is
  the identity on the extended reals, and a matrix product accumulated into zero is the plain sum over the contracted
  axis. So, at the block index (p, q):

  * the first kernel's block is            Σ_k x(p, k) · w(k, q);
  * the second's is                        Σ_k max(a(p, k) + b(0, k), 0) · w(k, q)
    (b is the bias as a [1, 128] row, broadcast down the 5000 rows of the block);
  * the third's is that sum with the [128, 10] weights, plus the output bias o(0, q).
-/
import proofs.«179236_j27951647163111_1_alg».proof.Proof.Gen.KernelIdeal.Frame
import proofs.«179236_j27951647163111_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Blocks

open Idealize.ShloMosaic Idealize.ShloMosaic.TcCoe Idealize.ShloMosaic.ValueIdx Cert.KernelIdeal Cert.KernelIdeal.Gen

/-- The offsets of a whole-block rectangle, as the constant zero. -/
theorem zeroOff : (![0, 0] : Fin 2 → Nat) = fun _ => 0 := funext fun a => by fin_cases a <;> rfl

/-- The zero that the kernels take the maximum with. -/
abbrev zero : EReal := Ideal.ofBits .f32 0x00000000#32

/-- A [1, n] row broadcast down the rows of an [r, n] block, read at (p, k): the row's entry k. -/
theorem row128_apply (b : Vec Ideal S1x128 .f32) (p : Fin 5000) (k : Fin 128) :
    broadcastTo S5000x128 b broadcasts_S1x128_S5000x128 (ix2 p k) = b (ix2 (0 : Fin 1) k) :=
  broadcastTo_apply b broadcasts_S1x128_S5000x128 (ix2 p k) (ix2 (0 : Fin 1) k) fun a => by
    match a with
    | ⟨0, _⟩ => rfl
    | ⟨1, _⟩ => rfl

theorem row10_apply (b : Vec Ideal S1x10 .f32) (p : Fin 5000) (k : Fin 10) :
    broadcastTo S5000x10 b broadcasts_S1x10_S5000x10 (ix2 p k) = b (ix2 (0 : Fin 1) k) :=
  broadcastTo_apply b broadcasts_S1x10_S5000x10 (ix2 p k) (ix2 (0 : Fin 1) k) fun a => by
    match a with
    | ⟨0, _⟩ => rfl
    | ⟨1, _⟩ => rfl

/-- The first kernel's block: the product of the 5000 rows with the weights. -/
theorem out0_apply (x0 : Vec Ideal S5000x128 .f32) (x1 : Vec Ideal S128x128 .f32) (j : S5000x128.Idx) :
    out0_2 (F := Ideal) x0 x1 j = ∑ k : Fin 128, x0 (ix2 (j 0) k) * x1 (ix2 k (j 1)) := by
  unfold out0_2
  rw [View.canon_unit_zero zeroOff]
  simp only [View.ld_unit_zero (S := S5000x128) zeroOff, View.ld_unit_zero (S := S128x128) zeroOff]
  unfold k0_pay1
  rw [Cert.Lib.PlainDot.eq_plain dot_S5000x128_S128x128_S5000x128_1_0_0_1_n_n rfl rfl rfl rfl rfl rfl]
  exact Cert.Lib.PlainDot.matmul_zero_plain_apply none _ _ j

/-- The activation both later kernels compute before their product: max(a + b, 0) with the bias row broadcast. -/
theorem act_apply (x0 : Vec Ideal S5000x128 .f32) (x1 : Vec Ideal S1x128 .f32) (p : Fin 5000) (k : Fin 128) :
    maximumf (F := Ideal) (addf (shapeCast S5000x128 x0 shapeCasts_S5000x128_S5000x128)
        (broadcastTo S5000x128 (shapeCast S1x128 x1 shapeCasts_S1x128_S1x128) broadcasts_S1x128_S5000x128))
      (broadcast S5000x128 (Scalar.ofBits .f32 0x00000000#32)) (ix2 p k)
      = max (x0 (ix2 p k) + x1 (ix2 (0 : Fin 1) k)) zero := by
  rw [shapeCast_self, shapeCast_self]
  show max (x0 (ix2 p k) + broadcastTo S5000x128 x1 broadcasts_S1x128_S5000x128 (ix2 p k)) _ = _
  rw [row128_apply]
  rfl

/-- The second kernel's block. -/
theorem out1_apply (x0 : Vec Ideal S5000x128 .f32) (x1 : Vec Ideal S1x128 .f32) (x2 : Vec Ideal S128x128 .f32)
    (j : S5000x128.Idx) :
    out1_3 (F := Ideal) x0 x1 x2 j
      = ∑ k : Fin 128, max (x0 (ix2 (j 0) k) + x1 (ix2 (0 : Fin 1) k)) zero * x2 (ix2 k (j 1)) := by
  unfold out1_3
  rw [View.canon_unit_zero zeroOff]
  simp only [View.ld_unit_zero (S := S5000x128) zeroOff, View.ld_unit_zero (S := S1x128) zeroOff,
    View.ld_unit_zero (S := S128x128) zeroOff]
  unfold k1_pay1
  rw [Cert.Lib.PlainDot.eq_plain dot_S5000x128_S128x128_S5000x128_1_0_0_1_n_n rfl rfl rfl rfl rfl rfl]
  refine (Cert.Lib.PlainDot.matmul_zero_plain_apply none _ _ j).trans (Finset.sum_congr rfl fun k _ => ?_)
  exact congrArg (· * x2 (ix2 k (j 1))) (act_apply x0 x1 (j 0) k)

/-- The third kernel's block: the same with the [128, 10] weights, and the output bias row added. -/
theorem out2_apply (x0 : Vec Ideal S5000x128 .f32) (x1 : Vec Ideal S1x128 .f32) (x2 : Vec Ideal S128x10 .f32)
    (x3 : Vec Ideal S1x10 .f32) (j : S5000x10.Idx) :
    out2_4 (F := Ideal) x0 x1 x2 x3 j
      = (∑ k : Fin 128, max (x0 (ix2 (j 0) k) + x1 (ix2 (0 : Fin 1) k)) zero * x2 (ix2 k (j 1)))
        + x3 (ix2 (0 : Fin 1) (j 1)) := by
  unfold out2_4
  rw [View.canon_unit_zero zeroOff]
  simp only [View.ld_unit_zero (S := S5000x128) zeroOff, View.ld_unit_zero (S := S1x128) zeroOff,
    View.ld_unit_zero (S := S128x10) zeroOff, View.ld_unit_zero (S := S1x10) zeroOff]
  unfold k2_pay1
  rw [Cert.Lib.PlainDot.eq_plain dot_S5000x128_S128x10_S5000x10_1_0_0_1_n_n rfl rfl rfl rfl rfl rfl]
  rw [shapeCast_self x3]
  obtain ⟨p, q, rfl⟩ : ∃ (p : Fin 5000) (q : Fin 10), j = ix2 p q := ⟨j 0, j 1, eq_ix2 j⟩
  show matmul (F := Ideal) (DotDims.plain 5000 128 10) none _ _ _ (ix2 p q)
      + broadcastTo S5000x10 x3 broadcasts_S1x10_S5000x10 (ix2 p q) = _
  rw [row10_apply]
  refine congrArg (· + x3 (ix2 (0 : Fin 1) q)) ?_
  refine (Cert.Lib.PlainDot.matmul_zero_plain_apply none _ _ _).trans (Finset.sum_congr rfl fun k _ => ?_)
  exact congrArg (· * x2 (ix2 k q)) (act_apply x0 x1 p k)

end Cert.KernelIdeal.Blocks

end
-- ==== Proof.LibSegSum.lean ====
/-
  Gathering rows by an index list and adding rows into segments, read at an index, and the law that lets a factor
  which depends only on the SEGMENT leave a segment sum.

  * a gather of whole rows of an [N, C] array at start indices [R, 1] reads row clamp(idx e) of the operand, and the
    rank-1 form (an [N] vector gathered at [R, 1]) reads entry clamp(idx e);
  * an update (e, k) of an add-scatter of [R, C] updates into an [N, C] operand at scatter indices [R, 1] lands on
    element (n, k') only if the signed index of e IS n;
  * on the extended reals a factor D with 0 ≤ D < ⊤ distributes over a finite sum, whatever the summands are
    (no summand needs to be finite);
  * hence, for per-node factors D that are all in [0, ⊤): scaling the gathered rows by D at their SOURCE node before the
    segment sum and the sum by D at the TARGET node after it gives, element by element, the segment sum of the rows each
    scaled by the product of the two factors gathered per edge — provided the edge's target factor is gathered at the
    index the scatter itself uses whenever that index is in range (the update is dropped otherwise).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## The dimension numbers -/

/-- Rows of an [N, C] operand gathered at start indices [R, 1]: result [R, C]. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entries of an [N] operand gathered at start indices [R, 1]: result [R]. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Rows [R, C] added into an [N, C] operand at scatter indices [R, 1]. -/
abbrev addRowsDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The start-indices index [e, 0] of edge e. -/
abbrev at0 {R : Nat} (e : Fin R) : (⟨2, ![R, 1]⟩ : Shape).Idx := ix2 e (⟨0, Nat.one_pos⟩ : Fin 1)

/-- A signed index clamped into [0, N − 1]. -/
abbrev clampIx {N : Nat} (hN : 0 < N) (v : BitVec 32) : Fin N := ⟨min v.toInt.toNat (N - 1), by omega⟩

/-! ## The gathers read at an index -/

section Gather
variable {α : Type}

theorem gather_rows_apply {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (e : Fin R) (k : Fin C) :
    Host.gather (rowsDims N R C wf) x idx (ix2 e k) = x (ix2 (clampIx hN (idx (at0 e))) k) := by
  unfold Host.gather
  congr 1
  funext a
  refine Fin.ext ?_
  have hsi : (rowsDims N R C wf).siIdx (ix2 e k) ⟨List.idxOf (0 : Fin 2) (rowsDims N R C wf).startIndexMap,
      List.idxOf_lt_length_iff.2 (List.mem_singleton.mpr rfl)⟩ = at0 e := by
    funext b; refine Fin.ext ?_
    match b with
    | ⟨0, _⟩ => rfl
    | ⟨1, _⟩ => rfl
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    rw [hsi]
    rfl
  | ⟨1, _⟩ =>
    show (rowsDims N R C wf).start (ix2 e k) idx 1 + (rowsDims N R C wf).batchCoord (ix2 e k) 1
      + (rowsDims N R C wf).offCoord (ix2 e k) 1 = _
    rw [GatherDims.batchCoord_eq_zero _ _ _ List.not_mem_nil]
    unfold GatherDims.start
    rw [dif_neg (show (1 : Fin 2) ∉ (rowsDims N R C wf).startIndexMap from (by decide : (1 : Fin 2) ∉ ([0] : List (Fin 2))))]
    simp only [Nat.add_zero, Nat.zero_add]
    rfl

theorem gather_entries_apply {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R) :
    Host.gather (entriesDims N R wf) x idx (ix1 e) = x (ix1 (clampIx hN (idx (at0 e)))) := by
  unfold Host.gather
  congr 1
  funext a
  obtain rfl : a = 0 := Subsingleton.elim _ _
  refine Fin.ext ?_
  show (entriesDims N R wf).start (ix1 e) idx 0 + (entriesDims N R wf).batchCoord (ix1 e) 0
    + (entriesDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 e) ⟨List.idxOf (0 : Fin 1) (entriesDims N R wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

end Gather

/-! ## Where an added row lands -/

theorem addRows_lands {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) (i : (⟨2, ![N, C]⟩ : Shape).Idx)
    (h : (addRowsDims N R C wf).resultIdx? (ix2 e k) idx = some i) :
    (idx (at0 e)).toInt = ((i 0).val : Int) := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hstart : (addRowsDims N R C wf).start (ix2 e k) idx 0 = (idx (at0 e)).toInt := by
    unfold ScatterDims.start
    rw [dif_pos (show (0 : Fin 2) ∈ (addRowsDims N R C wf).scatterDimsToOperandDims from List.mem_singleton.mpr rfl), hsi]
  have hwin : (addRowsDims N R C wf).window (ix2 e k) 0 = 0 := by
    unfold ScatterDims.window
    rw [dif_neg (show (0 : Fin 2) ∉ (addRowsDims N R C wf).sKept from (by decide : (0 : Fin 2) ∉ (List.finRange 2).filter (· ∉ ([0] : List (Fin 2)))))]
  unfold ScatterDims.resultIdx? at h
  split at h
  · rename_i hin
    have h0 := congrArg (fun f => (f 0).val) (Option.some.inj h)
    simp only at h0
    have hb := (hin 0).1
    rw [hstart, hwin] at h0 hb
    simp only [Nat.cast_zero, add_zero] at h0 hb
    omega
  · exact absurd h (by simp)

/-! ## A factor in [0, ⊤) leaves a sum -/

theorem sum_mul_of_nonneg_ne_top {ι : Type} [DecidableEq ι] (s : Finset ι) (f : ι → EReal) (D : EReal)
    (h0 : 0 ≤ D) (ht : D ≠ ⊤) : (∑ j ∈ s, f j) * D = ∑ j ∈ s, f j * D := by
  induction s using Finset.induction_on with
  | empty => simp
  | insert a s ha ih =>
    rw [Finset.sum_insert ha, Finset.sum_insert ha, EReal.right_distrib_of_nonneg_of_ne_top h0 ht, ih]

/-! ## Two keepdims broadcasts in a row: a vector down the rows of a matrix -/

section Bcast
variable {α : Type}

/-- [A] → [A, 1] → [A, B], read at (a, b): the vector's entry a. -/
theorem bcast_col_apply {A B : Nat}
    (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) := by
  refine (broadcastInDim_apply ![0, 1] h2 _ (ix2 a b) (ix2 a (⟨0, Nat.one_pos⟩ : Fin 1)) fun d => ?_).trans
    (broadcastInDim_apply ![0] h1 v (ix2 a (⟨0, Nat.one_pos⟩ : Fin 1)) (ix1 a) fun d => ?_)
  · match d with
    | ⟨0, _⟩ =>
      show a.val = if A = 1 then 0 else a.val
      split
      · have := a.isLt; omega
      · rfl
    | ⟨1, _⟩ => exact (if_pos rfl).symm
  · match d with
    | ⟨0, _⟩ =>
      show a.val = if A = 1 then 0 else a.val
      split
      · have := a.isLt; omega
      · rfl

/-- [A] → [A, 1], read at (a, 0): the vector's entry a. -/
theorem bcast_unit_apply {A : Nat}
    (h1 : (⟨1, ![A]⟩ : Shape).BroadcastsInDim ⟨2, ![A, 1]⟩ ![0])
    (v : (⟨1, ![A]⟩ : Shape).Idx → α) (a : Fin A) :
    broadcastInDim ⟨2, ![A, 1]⟩ ![0] h1 v (at0 a) = v (ix1 a) := by
  refine broadcastInDim_apply ![0] h1 v (at0 a) (ix1 a) fun d => ?_
  match d with
  | ⟨0, _⟩ =>
    show a.val = if A = 1 then 0 else a.val
    split
    · have := a.isLt; omega
    · rfl

/-- [B] → [1, B] → [A, B], read at (a, b): the vector's entry b. -/
theorem bcast_row_apply {A B : Nat}
    (h1 : (⟨1, ![B]⟩ : Shape).BroadcastsInDim ⟨2, ![1, B]⟩ ![1])
    (h2 : (⟨2, ![1, B]⟩ : Shape).BroadcastsInDim ⟨2, ![A, B]⟩ ![0, 1])
    (v : (⟨1, ![B]⟩ : Shape).Idx → α) (a : Fin A) (b : Fin B) :
    broadcastInDim ⟨2, ![A, B]⟩ ![0, 1] h2 (broadcastInDim ⟨2, ![1, B]⟩ ![1] h1 v) (ix2 a b) = v (ix1 b) := by
  refine (broadcastInDim_apply ![0, 1] h2 _ (ix2 a b) (ix2 (⟨0, Nat.one_pos⟩ : Fin 1) b) fun d => ?_).trans
    (broadcastInDim_apply ![1] h1 v (ix2 (⟨0, Nat.one_pos⟩ : Fin 1) b) (ix1 b) fun d => ?_)
  · match d with
    | ⟨0, _⟩ => exact (if_pos rfl).symm
    | ⟨1, _⟩ =>
      show b.val = if B = 1 then 0 else b.val
      split
      · have := b.isLt; omega
      · rfl
  · match d with
    | ⟨0, _⟩ =>
      show b.val = if B = 1 then 0 else b.val
      split
      · have := b.isLt; omega
      · rfl

end Bcast

/-! ## A negative index wrapped, an index that is not negative left alone -/

/-- select(v < 0, a, v) is v when v is not negative as a signed word. -/
theorem wrap_of_nonneg (v a : BitVec 32) (h : 0 ≤ v.toInt) : Scalar.select (IntOp.cmpi .slt v 0#32) a v = v := by
  have hs : v.slt 0#32 = false := by
    simp only [BitVec.slt, BitVec.toInt_zero, decide_eq_false_iff_not, not_lt]
    exact h
  have hc : IntOp.cmpi .slt v 0#32 = 0#1 := by
    show BitVec.ofBool (v.slt 0#32) = 0#1
    rw [hs]; rfl
  rw [hc]
  exact select_zero _ _

/-! ## The inverse square root of a degree, guarded at zero, lies in [0, ⊤) -/

theorem rsqrt_range (v : EReal) (hv : 0 < v) : 0 ≤ Ideal.rsqrt v ∧ Ideal.rsqrt v ≠ ⊤ := by
  induction v using EReal.rec with
  | bot => exact absurd hv (by simp)
  | coe r =>
    have hr : 0 < r := by exact_mod_cast hv
    rw [Ideal.rsqrt_coe, if_neg (not_lt.mpr hr.le), if_neg hr.ne']
    exact ⟨by exact_mod_cast (inv_nonneg.mpr (Real.sqrt_nonneg r)), EReal.coe_ne_top _⟩
  | top => rw [Ideal.rsqrt_top]; exact ⟨le_refl _, EReal.zero_ne_top⟩

/-- select(g > z, rsqrt(max(g, ε)), z) with ε > 0 and z = 0 is a number in [0, ⊤), whatever g is. -/
theorem guarded_rsqrt_range (g eps z : EReal) (heps : 0 < eps) (hz : z = 0) :
    0 ≤ Scalar.select (Ideal.cmp .ogt g z) (Ideal.rsqrt (max g eps)) z
      ∧ Scalar.select (Ideal.cmp .ogt g z) (Ideal.rsqrt (max g eps)) z ≠ ⊤ := by
  unfold Scalar.select
  split
  · exact rsqrt_range _ (lt_of_lt_of_le heps (le_max_right _ _))
  · rw [hz]; exact ⟨le_refl _, EReal.zero_ne_top⟩

/-! ## The law -/

/-- Rows scaled by D at the source before the segment sum and by D at the target after it, against the rows scaled per
    edge by the product of the two gathered factors: equal element by element when every D is in [0, ⊤), the operand
    being added into is zero, and the target factor's gather index is the scatter's own index wherever that is not
    negative. -/
theorem hoist {N R C : Nat} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (h1 : (⟨1, ![N]⟩ : Shape).BroadcastsInDim ⟨2, ![N, 1]⟩ ![0])
    (h2 : (⟨2, ![N, 1]⟩ : Shape).BroadcastsInDim ⟨2, ![N, C]⟩ ![0, 1])
    (g1 : (⟨1, ![R]⟩ : Shape).BroadcastsInDim ⟨2, ![R, 1]⟩ ![0])
    (g2 : (⟨2, ![R, 1]⟩ : Shape).BroadcastsInDim ⟨2, ![R, C]⟩ ![0, 1])
    (Z XL : FVec Ideal ⟨2, ![N, C]⟩ .f32) (hZ : ∀ i, Z i = 0)
    (D : FVec Ideal ⟨1, ![N]⟩ .f32) (hD : ∀ n, 0 ≤ D n ∧ D n ≠ ⊤)
    (rW cW cB : IVec ⟨2, ![R, 1]⟩ 32)
    (hW : ∀ e : Fin R, 0 ≤ (cB (at0 e)).toInt → cW (at0 e) = cB (at0 e)) :
    mulf (Host.scatterAdd (addRowsDims N R C wfS) Z cB
        (Host.gather (rowsDims N R C wfG)
          (mulf XL (broadcastInDim ⟨2, ![N, C]⟩ ![0, 1] h2 (broadcastInDim ⟨2, ![N, 1]⟩ ![0] h1 D))) rW))
      (broadcastInDim ⟨2, ![N, C]⟩ ![0, 1] h2 (broadcastInDim ⟨2, ![N, 1]⟩ ![0] h1 D))
    = Host.scatterAdd (addRowsDims N R C wfS) Z cB
        (mulf (Host.gather (rowsDims N R C wfG) XL rW)
          (broadcastInDim ⟨2, ![R, C]⟩ ![0, 1] g2 (broadcastInDim ⟨2, ![R, 1]⟩ ![0] g1
            (mulf (Host.gather (entriesDims N R wfV) D rW) (Host.gather (entriesDims N R wfV) D cW))))) := by
  funext i
  obtain ⟨n, k, rfl⟩ : ∃ (n : Fin N) (k : Fin C), i = ix2 n k := ⟨i 0, i 1, eq_ix2 i⟩
  rw [mulf_apply, bcast_col_apply]
  simp only [Host.scatterAdd, Ideal.hostScatterAdd_def, Ideal.hostScatterAdd]
  rw [hZ, zero_add, zero_add, sum_mul_of_nonneg_ne_top _ _ _ (hD _).1 (hD _).2]
  refine Finset.sum_congr rfl fun j hj => ?_
  obtain ⟨e, k', rfl⟩ : ∃ (e : Fin R) (k' : Fin C), j = ix2 e k' := ⟨j 0, j 1, eq_ix2 j⟩
  have hland := addRows_lands wfS cB e k' (ix2 n k) (Finset.mem_filter.mp hj).2
  have hcl : clampIx hN (cW (at0 e)) = n := by
    rw [hW e (by rw [hland]; exact Int.natCast_nonneg _)]
    refine Fin.ext ?_
    show min (cB (at0 e)).toInt.toNat (N - 1) = n.val
    have hn := n.isLt
    rw [hland]
    show min ((n.val : Int)).toNat (N - 1) = n.val
    rw [Int.toNat_natCast]
    omega
  rw [gather_rows_apply hN, mulf_apply, bcast_col_apply, mulf_apply, gather_rows_apply hN, bcast_col_apply, mulf_apply,
    gather_entries_apply hN, gather_entries_apply hN, hcl, mul_assoc]

end Cert.LibSegSum

end
-- ==== Proof.LibDenseLayer.lean ====
/-
  DENSE-LAYER STAGES AS FUNCTIONS OF WHOLE ARRAYS, element by element on the extended reals, generic in the extents:
  a plain product, a bias added to every row followed by a maximum with a constant, a bias added to every row; and
  the host operations (dot_general; two keepdims broadcasts of a vector, add, maximum with a broadcast scalar) that
  compute them. Nothing here depends on a program.

  * `prod X W`      — the plain product  [A, K] · [K, B] → [A, B]:  (r, c) ↦ Σ_k X(r, k) · W(k, c);
  * `actRow Z b z`  — the bias row b : [1, K] added to every row of Z : [A, K], then the maximum with z;
  * `act Z b z`     — the same with the bias a vector b : [K];
  * `addRowRow`, `addRow` — a row o : [1, B] (a vector o : [B]) added to every row of Y : [A, B].

  A vector cast to a one-row matrix reads its entry k at (0, k), so the row forms and the vector forms agree.
  The host's dot_general of a plain product is `prod`; two keepdims broadcasts [K] → [1, K] → [A, K] of a vector read
  its entry k at (a, k), so the host's bias-add-then-maximum is `act` and its bias add is `addRow`.
-/
import proofs.«179236_j27951647163111_1_alg».proof.Proof.LibPlainDot
import proofs.«179236_j27951647163111_1_alg».proof.Proof.LibSegSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Layer

open Idealize.ShloMosaic Idealize.ShloMosaic.ValueIdx

variable {A K B : Nat}

/-- The plain product of an [A, K] array with a [K, B] array. -/
def prod (X : (⟨2, ![A, K]⟩ : Shape).Idx → EReal) (W : (⟨2, ![K, B]⟩ : Shape).Idx → EReal) :
    (⟨2, ![A, B]⟩ : Shape).Idx → EReal :=
  fun i => ∑ k : Fin K, X (ix2 (i 0) k) * W (ix2 k (i 1))

/-- A bias ROW added to every row, then the maximum with `z`. -/
def actRow (Z : (⟨2, ![A, K]⟩ : Shape).Idx → EReal) (b : (⟨2, ![1, K]⟩ : Shape).Idx → EReal) (z : EReal) :
    (⟨2, ![A, K]⟩ : Shape).Idx → EReal :=
  fun i => max (Z i + b (ix2 (0 : Fin 1) (i 1))) z

/-- A bias VECTOR added to every row, then the maximum with `z`. -/
def act (Z : (⟨2, ![A, K]⟩ : Shape).Idx → EReal) (b : (⟨1, ![K]⟩ : Shape).Idx → EReal) (z : EReal) :
    (⟨2, ![A, K]⟩ : Shape).Idx → EReal :=
  fun i => max (Z i + b (ix1 (i 1))) z

/-- A ROW added to every row. -/
def addRowRow (Y : (⟨2, ![A, B]⟩ : Shape).Idx → EReal) (o : (⟨2, ![1, B]⟩ : Shape).Idx → EReal) :
    (⟨2, ![A, B]⟩ : Shape).Idx → EReal :=
  fun i => Y i + o (ix2 (0 : Fin 1) (i 1))

/-- A VECTOR added to every row. -/
def addRow (Y : (⟨2, ![A, B]⟩ : Shape).Idx → EReal) (o : (⟨1, ![B]⟩ : Shape).Idx → EReal) :
    (⟨2, ![A, B]⟩ : Shape).Idx → EReal :=
  fun i => Y i + o (ix1 (i 1))

/-- The row form at the vector cast to one row is the vector form. -/
theorem actRow_cast (Z : (⟨2, ![A, K]⟩ : Shape).Idx → EReal) (b : (⟨1, ![K]⟩ : Shape).Idx → EReal)
    (h : (⟨1, ![K]⟩ : Shape).ShapeCasts ⟨2, ![1, K]⟩) (z : EReal) :
    actRow Z (shapeCast ⟨2, ![1, K]⟩ b h) z = act Z b z :=
  funext fun i => by
    obtain ⟨a, k, rfl⟩ : ∃ (a : Fin A) (k : Fin K), i = ix2 a k := ⟨i 0, i 1, eq_ix2 i⟩
    show max (Z (ix2 a k) + shapeCast ⟨2, ![1, K]⟩ b h (ix2 (0 : Fin 1) k)) z = max (Z (ix2 a k) + b (ix1 k)) z
    rw [shapeCast_a_1a_apply]

theorem addRowRow_cast (Y : (⟨2, ![A, B]⟩ : Shape).Idx → EReal) (o : (⟨1, ![B]⟩ : Shape).Idx → EReal)
    (h : (⟨1, ![B]⟩ : Shape).ShapeCasts ⟨2, ![1, B]⟩) :
    addRowRow Y (shapeCast ⟨2, ![1, B]⟩ o h) = addRow Y o :=
  funext fun i => by
    obtain ⟨a, k, rfl⟩ : ∃ (a : Fin A) (k : Fin B), i = ix2 a k := ⟨i 0, i 1, eq_ix2 i⟩
    show Y (ix2 a k) + shapeCast ⟨2, ![1, B]⟩ o h (ix2 (0 : Fin 1) k) = Y (ix2 a k) + o (ix1 k)
    rw [shapeCast_a_1a_apply]

/-- The host's dot_general of a plain product (whatever record spells its dimension numbers) is `prod`. -/
theorem dotGeneral_eq_prod (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ .f32) (W : FVec Ideal ⟨2, ![K, B]⟩ .f32) :
    Host.dotGeneral d none X W = prod X W := by
  rw [Cert.Lib.PlainDot.eq_plain d h1 h2 h3 h4 h5 h6]
  exact funext fun i => Cert.Lib.PlainDot.dotGeneral_plain_apply none X W i

/-- The host's bias add (the vector broadcast to one row, the row to every row) and maximum with a broadcast
    scalar constant is `act` at that constant's value. -/
theorem hostAct_eq (Z : FVec Ideal ⟨2, ![A, K]⟩ .f32) (b : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![A, K]⟩ ![0, 1])
    (z : FVec Ideal ⟨0, ![]⟩ .f32) (h0 : (⟨0, ![]⟩ : Shape).BroadcastsInDim ⟨2, ![A, K]⟩ ![]) :
    maximumf (addf Z (broadcastInDim ⟨2, ![A, K]⟩ ![0, 1] h2 (broadcastInDim ⟨2, ![1, K]⟩ ![1] h1 b)))
        (broadcastInDim ⟨2, ![A, K]⟩ ![] h0 z)
      = act Z b (z ix0) :=
  funext fun i => by
    obtain ⟨a, k, rfl⟩ : ∃ (a : Fin A) (k : Fin K), i = ix2 a k := ⟨i 0, i 1, eq_ix2 i⟩
    show max (Z (ix2 a k) + broadcastInDim ⟨2, ![A, K]⟩ ![0, 1] h2 (broadcastInDim ⟨2, ![1, K]⟩ ![1] h1 b) (ix2 a k))
        (broadcastInDim ⟨2, ![A, K]⟩ ![] h0 z (ix2 a k)) = max (Z (ix2 a k) + b (ix1 k)) (z ix0)
    have hz : broadcastInDim ⟨2, ![A, K]⟩ ![] h0 z (ix2 a k) = z ix0 :=
      broadcastInDim_apply ![] h0 z (ix2 a k) ix0 fun d => d.elim0
    rw [hz, Cert.LibSegSum.bcast_row_apply]

/-- The host's bias add of a vector to every row is `addRow`. -/
theorem hostAddRow_eq (Y : FVec Ideal ⟨2, ![A, B]⟩ .f32) (o : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1]) :
    addf Y (broadcastInDim ⟨2, ![A, B]⟩ ![0, 1] h2 (broadcastInDim ⟨2, ![1, B]⟩ ![1] h1 o)) = addRow Y o :=
  funext fun i => by
    obtain ⟨a, k, rfl⟩ : ∃ (a : Fin A) (k : Fin B), i = ix2 a k := ⟨i 0, i 1, eq_ix2 i⟩
    show Y (ix2 a k) + broadcastInDim ⟨2, ![A, B]⟩ ![0, 1] h2 (broadcastInDim ⟨2, ![1, B]⟩ ![1] h1 o) (ix2 a k)
      = Y (ix2 a k) + o (ix1 k)
    rw [Cert.LibSegSum.bcast_row_apply]

end Cert.Layer

end
-- ==== Proof.Arrays.lean ====
/-
  From blocks to whole arrays: what each kernel's region leaves in its output array, as ONE function of the arrays
  the region finds, whatever those are.

  Each region runs its body at 20 grid points. At point t the activations' window (and the output's) is block t of
  5000 rows, all columns; the weights' and the bias rows' windows are the whole (small) arrays at every point. So
  what point t writes back is rows 5000·t … 5000·t + 4999 of one whole-array function of the region's arrays
  (`Cert.Layer`): the plain product for the first region; the product of the activated rows for the second; that
  plus the output bias row for the third. The 20 blocks tile the 100000 rows, so the array ends at that function.
  The contents `V` the region is entered with are a parameter throughout.
-/
import proofs.«179236_j27951647163111_1_alg».proof.Proof.Gen.KernelIdeal.Frame
import proofs.«179236_j27951647163111_1_alg».proof.Proof.Blocks
import proofs.«179236_j27951647163111_1_alg».proof.Proof.LibDenseLayer
import Idealize.ShloMosaic.Lib.Pipeline.Value
import Idealize.ShloMosaic.Lib.ValueIdx

set_option maxRecDepth 16384

noncomputable section

open scoped BigOperators

namespace Cert.KernelIdeal.Arrays

open Idealize.ShloMosaic Idealize.ShloMosaic.TcCoe Idealize.ShloMosaic.ValueIdx Idealize.SL.Sem
open Cert.KernelIdeal Cert.KernelIdeal.Gen Cert.KernelIdeal.Blocks
open Idealize.ShloMosaic.Pipeline (Dat)

/-- A product of two array entries moves along equal indices. -/
theorem mul_congr {S T : Shape} (X : FVec Ideal S .f32) (W : FVec Ideal T .f32) {a a' : S.Idx} {b b' : T.Idx}
    (ha : a = a') (hb : b = b') : X a * W b = X a' * W b' := by rw [ha, hb]

/-- So does an activated entry times a weight. -/
theorem act_mul_congr {S R T : Shape} (Z : FVec Ideal S .f32) (r : FVec Ideal R .f32) (W : FVec Ideal T .f32) (z : EReal)
    {a a' : S.Idx} {p p' : R.Idx} {q q' : T.Idx} (ha : a = a') (hp : p = p') (hq : q = q') :
    max (Z a + r p) z * W q = max (Z a' + r p') z * W q' := by rw [ha, hp, hq]

variable (V : (c : Dev nD) → (b : Ref sig .tc) → Buf (Elt Ideal) ((c : Thread nD τ).loc b))

/-! ## The first region: the product of the embedding rows with the first weights -/

/-- The printed index maps over the grid: the row windows are at block t, everything else at block 0. -/
theorem idx0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point t writes back is block t of the product. -/
theorem flushed0 (c : Dev nD) (t : Fin cfg0.N) :
    (dat0 V c).flushed 2 t
      = ((cfg0.win 2).blk t).view.read (Elt Ideal) (Cert.Layer.prod (A := 100000) (K := 128) (B := 128) (V c main_arg1) (V c main_arg2)) := by
  show (cfg0.win 2).cut (grid0.coords t) ((dat0 V c).after 2 t) = _
  rw [after0_2]
  funext j
  show out0_2 (iblk0 V c 0 t) (iblk0 V c 1 t) j
    = Cert.Layer.prod (A := 100000) (K := 128) (B := 128) (V c main_arg1) (V c main_arg2) (((cfg0.win 2).blk t).view.emb j)
  refine (out0_apply _ _ j).trans (Finset.sum_congr rfl fun k _ => ?_)
  obtain ⟨e0, e1, e2, e3, e4, e5⟩ := idx0 t
  have hj0 : (j 0).val < 5000 := (j 0).isLt
  have hj1 : (j 1).val < 128 := (j 1).isLt
  have hk : k.val < 128 := k.isLt
  have hx : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact mul_congr (S := S100000x128) (T := S128x128) (V c main_arg1) (V c main_arg2) hx hw

/-- An index is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row r is in the block of point r / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 := ⟨⟨(i 0).val / 5000, by show _ < 20; omega⟩, rfl⟩
  obtain ⟨e0, e1, e2, e3, e4, e5⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The first region's output array after the region. -/
theorem array0 (c : Dev nD) :
    (dat0 V c).arrAt 2 cfg0.N = Cert.Layer.prod (A := 100000) (K := 128) (B := 128) (V c main_arg1) (V c main_arg2) :=
  (dat0 V c).arrAt_eq_of_cover 2 _ (fun t _ => flushed0 V c t) cover0

/-! ## The second region: bias, maximum with zero, product with the second weights -/

theorem idx1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

theorem flushed1 (c : Dev nD) (t : Fin cfg1.N) :
    (dat1 V c).flushed 3 t
      = ((cfg1.win 3).blk t).view.read (Elt Ideal)
          (Cert.Layer.prod (A := 100000) (K := 128) (B := 128)
            (Cert.Layer.actRow (A := 100000) (K := 128) (V c main_v45) (V c main_v46) zero) (V c main_arg4)) := by
  show (cfg1.win 3).cut (grid1.coords t) ((dat1 V c).after 3 t) = _
  rw [after1_3]
  funext j
  show out1_3 (iblk1 V c 0 t) (iblk1 V c 1 t) (iblk1 V c 2 t) j
    = Cert.Layer.prod (A := 100000) (K := 128) (B := 128)
        (Cert.Layer.actRow (A := 100000) (K := 128) (V c main_v45) (V c main_v46) zero) (V c main_arg4) (((cfg1.win 3).blk t).view.emb j)
  refine (out1_apply _ _ _ j).trans (Finset.sum_congr rfl fun k _ => ?_)
  obtain ⟨e0, e1, e2, e3, e4, e5, e6, e7⟩ := idx1 t
  have hj0 : (j 0).val < 5000 := (j 0).isLt
  have hj1 : (j 1).val < 128 := (j 1).isLt
  have hk : k.val < 128 := k.isLt
  have hx : ((cfg1.win 0).blk t).view.emb (ix2 (j 0) k) = ix2 ((((cfg1.win 3).blk t).view.emb j) 0) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have hb : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have hw : ((cfg1.win 2).blk t).view.emb (ix2 k (j 1)) = ix2 k ((((cfg1.win 3).blk t).view.emb j) 1) := by
    funext a; apply Fin.ext
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  exact act_mul_congr (S := S100000x128) (R := S1x128) (T := S128x128) (V c main_v45) (V c main_v46) (V c main_arg4) zero hx hb hw

theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v47).slice (win1_3.rect t)).set ↔ _
  rw [View.set_slice_whole, Rect.mem_set_unit]
  exact Iff.rfl

theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 := ⟨⟨(i 0).val / 5000, by show _ < 20; omega⟩, rfl⟩
  obtain ⟨e0, e1, e2, e3, e4, e5, e6, e7⟩ := idx1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The second region's output array after the region. -/
theorem array1 (c : Dev nD) :
    (dat1 V c).arrAt 3 cfg1.N
      = Cert.Layer.prod (A := 100000) (K := 128) (B := 128)
          (Cert.Layer.actRow (A := 100000) (K := 128) (V c main_v45) (V c main_v46) zero) (V c main_arg4) :=
  (dat1 V c).arrAt_eq_of_cover 3 _ (fun t _ => flushed1 V c t) cover1

/-! ## The third region: bias, maximum with zero, product with the output weights, output bias -/

theorem idx2 : ∀ t : Fin cfg2.N, win2_0.index t (0 : Fin 2) = win2_4.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) = t.val :=
  (by decide +kernel : ∀ t : Fin grid2.N, _)

theorem flushed2 (c : Dev nD) (t : Fin cfg2.N) :
    (dat2 V c).flushed 4 t
      = ((cfg2.win 4).blk t).view.read (Elt Ideal)
          (Cert.Layer.addRowRow (A := 100000) (B := 10)
            (Cert.Layer.prod (A := 100000) (K := 128) (B := 10)
              (Cert.Layer.actRow (A := 100000) (K := 128) (V c main_v60) (V c main_v61) zero) (V c main_arg6))
            (V c main_v62)) := by
  show (cfg2.win 4).cut (grid2.coords t) ((dat2 V c).after 4 t) = _
  rw [after2_4]
  funext j
  show out2_4 (iblk2 V c 0 t) (iblk2 V c 1 t) (iblk2 V c 2 t) (iblk2 V c 3 t) j
    = Cert.Layer.addRowRow (A := 100000) (B := 10)
        (Cert.Layer.prod (A := 100000) (K := 128) (B := 10)
          (Cert.Layer.actRow (A := 100000) (K := 128) (V c main_v60) (V c main_v61) zero) (V c main_arg6))
        (V c main_v62) (((cfg2.win 4).blk t).view.emb j)
  obtain ⟨e0, e1, e2, e3, e4, e5, e6, e7, e8, e9⟩ := idx2 t
  have hj0 : (j 0).val < 5000 := (j 0).isLt
  have hj1 : (j 1).val < 10 := (j 1).isLt
  have ho : ((cfg2.win 3).blk t).view.emb (ix2 (0 : Fin 1) (j 1)) = ix2 (0 : Fin 1) ((((cfg2.win 4).blk t).view.emb j) 1) := by
    funext a; apply Fin.ext
    match a with
    | ⟨0, _⟩ => show win2_3.index t (0 : Fin 2) * 1 + 1 * 0 = 0; omega
    | ⟨1, _⟩ => show win2_3.index t (1 : Fin 2) * 10 + 1 * (j 1).val = win2_4.index t (1 : Fin 2) * 10 + 1 * (j 1).val; omega
  refine (out2_apply _ _ _ _ j).trans (congrArg₂ (· + ·) (Finset.sum_congr rfl fun k _ => ?_) (congrArg (V c main_v62) ho))
  have hk : k.val < 128 := k.isLt
  have hx : ((cfg2.win 0).blk t).view.emb (ix2 (j 0) k) = ix2 ((((cfg2.win 4).blk t).view.emb j) 0) k := by
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * k.val = k.val; omega
  have hb : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have hw : ((cfg2.win 2).blk t).view.emb (ix2 k (j 1)) = ix2 k ((((cfg2.win 4).blk t).view.emb j) 1) := by
    funext a; apply Fin.ext
    match a with
    | ⟨0, _⟩ => show win2_2.index t (0 : Fin 2) * 128 + 1 * k.val = k.val; omega
    | ⟨1, _⟩ => show win2_2.index t (1 : Fin 2) * 10 + 1 * (j 1).val = win2_4.index t (1 : Fin 2) * 10 + 1 * (j 1).val; omega
  exact act_mul_congr (S := S100000x128) (R := S1x128) (T := S128x10) (V c main_v60) (V c main_v61) (V c main_arg6) zero hx hb hw

theorem mem_blk2 (t : Fin cfg2.N) (i : S100000x10.Idx) :
    i ∈ ((cfg2.win 4).blk t).view.set ↔ ∀ a : Fin 2, win2_4.index t a * S5000x10.size a ≤ (i a).val ∧ (i a).val < win2_4.index t a * S5000x10.size a + S5000x10.size a := by
  show i ∈ ((View.whole main_v63).slice (win2_4.rect t)).set ↔ _
  rw [View.set_slice_whole, Rect.mem_set_unit]
  exact Iff.rfl

theorem cover2 (i : S100000x10.Idx) : ∃ t : Fin cfg2.N, (cfg2.win 4).flush t = true ∧ i ∈ ((cfg2.win 4).blk t).view.set := by
  have hi0 : (i 0).val < 100000 := (i 0).isLt
  have hi1 : (i 1).val < 10 := (i 1).isLt
  obtain ⟨t, ht⟩ : ∃ t : Fin cfg2.N, t.val = (i 0).val / 5000 := ⟨⟨(i 0).val / 5000, by show _ < 20; omega⟩, rfl⟩
  obtain ⟨e0, e1, e2, e3, e4, e5, e6, e7, e8, e9⟩ := idx2 t
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 10 ≤ (i 1).val ∧ (i 1).val < win2_4.index t (1 : Fin 2) * 10 + 10; omega

/-- The third region's output array after the region. -/
theorem array2 (c : Dev nD) :
    (dat2 V c).arrAt 4 cfg2.N
      = Cert.Layer.addRowRow (A := 100000) (B := 10)
          (Cert.Layer.prod (A := 100000) (K := 128) (B := 10)
            (Cert.Layer.actRow (A := 100000) (K := 128) (V c main_v60) (V c main_v61) zero) (V c main_arg6))
          (V c main_v62) :=
  (dat2 V c).arrAt_eq_of_cover 4 _ (fun t _ => flushed2 V c t) cover2

end Cert.KernelIdeal.Arrays

end
-- ==== Proof.Walk.lean ====
/-
  The contents of the TensorCore's buffers at the boundaries of @main's segments, read back.

  The generated fold names the contents at each boundary: `W3` when the first region is entered (after the graph
  bookkeeping), `W4` when it is left, `W5` after the first aggregation (the second region's entry), `W6` at its exit,
  `W7` after the second aggregation, `W8` at the end. Here each buffer a later stage reads is walked back through
  the fold: an argument is never written, so it holds its launch contents at every boundary; the source and target
  lists and the edge weights are computed before the first region and never written again; each aggregation's
  result is the stage `Cert.Stages.aggr` of the previous region's output array; the bias vectors reach the kernels
  as one-row matrices.
-/
import proofs.«179236_j27951647163111_1_alg».proof.Proof.Gen.KernelIdeal.Frame
import proofs.«179236_j27951647163111_1_alg».proof.Proof.Stages
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no operation of a host stretch writes holds after the stretch what it held before. -/
macro "not_written" : tactic => `(tactic|
  (refine StableHlo.after_of_forall_not_mem _ _ (List.forall_iff_forall_mem.mp ?_)
   simp only [hostOps0, hostOps0_1, hostOps0_2, hostOps1, hostOps2, List.flatten_cons, List.flatten_nil, List.append_nil,
     List.cons_append, List.nil_append, List.Forall, StableHlo.nullary_writes, StableHlo.unary_writes,
     StableHlo.binary_writes, StableHlo.ternary_writes, StableHlo.quaternary_writes, StableHlo.reshape_writes,
     StableHlo.binaryIndexed_writes, Finset.mem_singleton]
   repeat' apply And.intro
   all_goals exact StableHlo.devRef_ne_of_ne (by decide)))

/-! ## The arguments at each boundary -/

theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by not_written
    _ = W1 m ρ c (Proc.devRef .tc main_arg1) := by not_written
    _ = W0 m ρ c (Proc.devRef .tc main_arg1) := by not_written
    _ = m ((c : Thread nD τ).loc main_arg1) := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by not_written
    _ = W1 m ρ c (Proc.devRef .tc main_arg2) := by not_written
    _ = W0 m ρ c (Proc.devRef .tc main_arg2) := by not_written
    _ = m ((c : Thread nD τ).loc main_arg2) := rfl

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by not_written
    _ = W1 m ρ c (Proc.devRef .tc main_arg3) := by not_written
    _ = W0 m ρ c (Proc.devRef .tc main_arg3) := by not_written
    _ = m ((c : Thread nD τ).loc main_arg3) := rfl

theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by not_written
    _ = W1 m ρ c (Proc.devRef .tc main_arg4) := by not_written
    _ = W0 m ρ c (Proc.devRef .tc main_arg4) := by not_written
    _ = m ((c : Thread nD τ).loc main_arg4) := rfl

theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by not_written
    _ = W1 m ρ c (Proc.devRef .tc main_arg5) := by not_written
    _ = W0 m ρ c (Proc.devRef .tc main_arg5) := by not_written
    _ = m ((c : Thread nD τ).loc main_arg5) := rfl

theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by not_written
    _ = W1 m ρ c (Proc.devRef .tc main_arg6) := by not_written
    _ = W0 m ρ c (Proc.devRef .tc main_arg6) := by not_written
    _ = m ((c : Thread nD τ).loc main_arg6) := rfl

theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by not_written
    _ = W1 m ρ c (Proc.devRef .tc main_arg7) := by not_written
    _ = W0 m ρ c (Proc.devRef .tc main_arg7) := by not_written
    _ = m ((c : Thread nD τ).loc main_arg7) := rfl

theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)

theorem W5_arg4 (c : Dev nD) : W5 m ρ c (Proc.devRef .tc main_arg4) = m ((c : Thread nD τ).loc main_arg4) :=
  (show W5 m ρ c (Proc.devRef .tc main_arg4) = W4 m ρ c (Proc.devRef .tc main_arg4) by not_written).trans (W4_arg4 m ρ c)
theorem W5_arg5 (c : Dev nD) : W5 m ρ c (Proc.devRef .tc main_arg5) = m ((c : Thread nD τ).loc main_arg5) :=
  (show W5 m ρ c (Proc.devRef .tc main_arg5) = W4 m ρ c (Proc.devRef .tc main_arg5) by not_written).trans (W4_arg5 m ρ c)
theorem W5_arg6 (c : Dev nD) : W5 m ρ c (Proc.devRef .tc main_arg6) = m ((c : Thread nD τ).loc main_arg6) :=
  (show W5 m ρ c (Proc.devRef .tc main_arg6) = W4 m ρ c (Proc.devRef .tc main_arg6) by not_written).trans (W4_arg6 m ρ c)
theorem W5_arg7 (c : Dev nD) : W5 m ρ c (Proc.devRef .tc main_arg7) = m ((c : Thread nD τ).loc main_arg7) :=
  (show W5 m ρ c (Proc.devRef .tc main_arg7) = W4 m ρ c (Proc.devRef .tc main_arg7) by not_written).trans (W4_arg7 m ρ c)

theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_arg7 (c : Dev nD) : W6 m ρ c (Proc.devRef .tc main_arg7) = m ((c : Thread nD τ).loc main_arg7) :=
  (W6_of_ne m ρ c main_arg7 (by decide)).trans (W5_arg7 m ρ c)

theorem W7_arg6 (c : Dev nD) : W7 m ρ c (Proc.devRef .tc main_arg6) = m ((c : Thread nD τ).loc main_arg6) :=
  (show W7 m ρ c (Proc.devRef .tc main_arg6) = W6 m ρ c (Proc.devRef .tc main_arg6) by not_written).trans (W6_arg6 m ρ c)

/-! ## The graph bookkeeping, computed before the first region and never written again -/

/-- The source list at the first region's entry. -/
theorem W3_src (c : Dev nD) : W3 m ρ c (Proc.devRef .tc main_v3) = Cert.Stages.src (m ((c : Thread nD τ).loc main_arg0)) := by
  show StableHlo.after hostOps0_2 (StableHlo.after hostOps0_1 (StableHlo.after hostOps0 (W0 m ρ c))) (Proc.devRef .tc main_v3) = _
  after_results_simp
  rfl

theorem W3_dst (c : Dev nD) : W3 m ρ c (Proc.devRef .tc main_v6) = Cert.Stages.dst (m ((c : Thread nD τ).loc main_arg0)) := by
  show StableHlo.after hostOps0_2 (StableHlo.after hostOps0_1 (StableHlo.after hostOps0 (W0 m ρ c))) (Proc.devRef .tc main_v6) = _
  after_results_simp
  rfl

/-- The edge weights at the first region's entry. -/
theorem W3_norm (c : Dev nD) : W3 m ρ c (Proc.devRef .tc main_v31) = Cert.Stages.norm F (m ((c : Thread nD τ).loc main_arg0)) := by
  show StableHlo.after hostOps0_2 (StableHlo.after hostOps0_1 (StableHlo.after hostOps0 (W0 m ρ c))) (Proc.devRef .tc main_v31) = _
  after_results_simp
  rfl

theorem W4_src (c : Dev nD) : W4 m ρ c (Proc.devRef .tc main_v3) = Cert.Stages.src (m ((c : Thread nD τ).loc main_arg0)) :=
  (W4_of_ne m ρ c main_v3 (by decide)).trans (W3_src m ρ c)
theorem W5_src (c : Dev nD) : W5 m ρ c (Proc.devRef .tc main_v3) = Cert.Stages.src (m ((c : Thread nD τ).loc main_arg0)) :=
  (show W5 m ρ c (Proc.devRef .tc main_v3) = W4 m ρ c (Proc.devRef .tc main_v3) by not_written).trans (W4_src m ρ c)
theorem W6_src (c : Dev nD) : W6 m ρ c (Proc.devRef .tc main_v3) = Cert.Stages.src (m ((c : Thread nD τ).loc main_arg0)) :=
  (W6_of_ne m ρ c main_v3 (by decide)).trans (W5_src m ρ c)
theorem W4_dst (c : Dev nD) : W4 m ρ c (Proc.devRef .tc main_v6) = Cert.Stages.dst (m ((c : Thread nD τ).loc main_arg0)) :=
  (W4_of_ne m ρ c main_v6 (by decide)).trans (W3_dst m ρ c)
theorem W5_dst (c : Dev nD) : W5 m ρ c (Proc.devRef .tc main_v6) = Cert.Stages.dst (m ((c : Thread nD τ).loc main_arg0)) :=
  (show W5 m ρ c (Proc.devRef .tc main_v6) = W4 m ρ c (Proc.devRef .tc main_v6) by not_written).trans (W4_dst m ρ c)
theorem W6_dst (c : Dev nD) : W6 m ρ c (Proc.devRef .tc main_v6) = Cert.Stages.dst (m ((c : Thread nD τ).loc main_arg0)) :=
  (W6_of_ne m ρ c main_v6 (by decide)).trans (W5_dst m ρ c)
theorem W4_norm (c : Dev nD) : W4 m ρ c (Proc.devRef .tc main_v31) = Cert.Stages.norm F (m ((c : Thread nD τ).loc main_arg0)) :=
  (W4_of_ne m ρ c main_v31 (by decide)).trans (W3_norm m ρ c)
theorem W5_norm (c : Dev nD) : W5 m ρ c (Proc.devRef .tc main_v31) = Cert.Stages.norm F (m ((c : Thread nD τ).loc main_arg0)) :=
  (show W5 m ρ c (Proc.devRef .tc main_v31) = W4 m ρ c (Proc.devRef .tc main_v31) by not_written).trans (W4_norm m ρ c)
theorem W6_norm (c : Dev nD) : W6 m ρ c (Proc.devRef .tc main_v31) = Cert.Stages.norm F (m ((c : Thread nD τ).loc main_arg0)) :=
  (W6_of_ne m ρ c main_v31 (by decide)).trans (W5_norm m ρ c)

/-! ## The two aggregations, and the bias vectors as rows -/

/-- The second region is entered with the first aggregation of the first region's output array. -/
theorem W5_agg (c : Dev nD) :
    W5 m ρ c (Proc.devRef .tc main_v45)
      = Cert.Stages.aggr F (m ((c : Thread nD τ).loc main_arg0)) (W4 m ρ c (Proc.devRef .tc main_v32)) := by
  show StableHlo.after hostOps1 (W4 m ρ c) (Proc.devRef .tc main_v45) = _
  after_results_simp
  rw [W4_src m ρ c, W4_dst m ρ c, W4_norm m ρ c]
  rfl

/-- … and with the first bias as a [1, 128] row. -/
theorem W5_bias (c : Dev nD) :
    W5 m ρ c (Proc.devRef .tc main_v46) = shapeCast S1x128 (m ((c : Thread nD τ).loc main_arg3)) shapeCasts_S128_S1x128 := by
  show StableHlo.after hostOps1 (W4 m ρ c) (Proc.devRef .tc main_v46) = _
  after_results_simp
  rw [W4_arg3 m ρ c]
  rfl

/-- The third region is entered with the second aggregation of the second region's output array. -/
theorem W7_agg (c : Dev nD) :
    W7 m ρ c (Proc.devRef .tc main_v60)
      = Cert.Stages.aggr F (m ((c : Thread nD τ).loc main_arg0)) (W6 m ρ c (Proc.devRef .tc main_v47)) := by
  show StableHlo.after hostOps2 (W6 m ρ c) (Proc.devRef .tc main_v60) = _
  after_results_simp
  rw [W6_src m ρ c, W6_dst m ρ c, W6_norm m ρ c]
  rfl

theorem W7_bias (c : Dev nD) :
    W7 m ρ c (Proc.devRef .tc main_v61) = shapeCast S1x128 (m ((c : Thread nD τ).loc main_arg5)) shapeCasts_S128_S1x128 := by
  show StableHlo.after hostOps2 (W6 m ρ c) (Proc.devRef .tc main_v61) = _
  after_results_simp
  rw [W6_arg5 m ρ c]
  rfl

theorem W7_obias (c : Dev nD) :
    W7 m ρ c (Proc.devRef .tc main_v62) = shapeCast S1x10 (m ((c : Thread nD τ).loc main_arg7)) shapeCasts_S10_S1x10 := by
  show StableHlo.after hostOps2 (W6 m ρ c) (Proc.devRef .tc main_v62) = _
  after_results_simp
  rw [W6_arg7 m ρ c]
  rfl

end Cert.KernelIdeal.Walk

end
-- ==== Proof.KernelValue.lean ====
/-
  The idealized kernel's result is the network `Cert.Stages.out` of @main's arguments.

  On the extended reals each dense stage of the reference is the whole-array function the matching kernel region leaves
  (`Cert.Layer`): the host's dot_general is the plain product, its bias-add-then-maximum the activation, its last bias
  add the row added to every row. The regions' arrays are chained through the boundaries of @main: the first
  region's output is X·W1; the second is entered with its aggregation and the first bias as a row, and leaves
  hidden(aggr(X·W1), b1)·W2; the third is entered with that array's aggregation and leaves the result.
-/
import proofs.«179236_j27951647163111_1_alg».proof.Proof.KernelRun
import proofs.«179236_j27951647163111_1_alg».proof.Proof.Arrays
import proofs.«179236_j27951647163111_1_alg».proof.Proof.Walk
import proofs.«179236_j27951647163111_1_alg».proof.Proof.LibDenseLayer
import proofs.«179236_j27951647163111_1_alg».proof.Proof.Stages

set_option maxRecDepth 16384

noncomputable section

namespace Cert.KernelIdeal.KValue

open Cert.KernelIdeal Cert.KernelIdeal.Gen
open Idealize.ShloMosaic Idealize.ShloMosaic.TcCoe Idealize.SL.Sem
open Cert.KernelIdeal.Blocks (zero)

/-! ## The reference's dense stages as whole-array functions -/

theorem h1_eq (x1 : FVec Ideal Cert.ReferenceIdeal.S100000x128 .f32) (x2 : FVec Ideal Cert.ReferenceIdeal.S128x128 .f32) :
    Cert.Stages.h1 Ideal x1 x2 = Cert.Layer.prod (A := 100000) (K := 128) (B := 128) x1 x2 :=
  Cert.Layer.dotGeneral_eq_prod (A := 100000) (K := 128) (B := 128) _ rfl rfl rfl rfl rfl rfl x1 x2

theorem hidden_eq (Z : FVec Ideal Cert.ReferenceIdeal.S100000x128 .f32) (b : FVec Ideal Cert.ReferenceIdeal.S128 .f32) :
    Cert.Stages.hidden Ideal Z b = Cert.Layer.act (A := 100000) (K := 128) Z b zero :=
  Cert.Layer.hostAct_eq (A := 100000) (K := 128) Z b _ _ (constant (F := Ideal) Cert.ReferenceIdeal.S_ .f32 0x00000000#32) _

theorem h2_eq (x0 : IVec Cert.ReferenceIdeal.S2x1600000 32) (x1 : FVec Ideal Cert.ReferenceIdeal.S100000x128 .f32)
    (x2 : FVec Ideal Cert.ReferenceIdeal.S128x128 .f32) (x3 : FVec Ideal Cert.ReferenceIdeal.S128 .f32)
    (x4 : FVec Ideal Cert.ReferenceIdeal.S128x128 .f32) :
    Cert.Stages.h2 Ideal x0 x1 x2 x3 x4
      = Cert.Layer.prod (A := 100000) (K := 128) (B := 128)
          (Cert.Layer.act (A := 100000) (K := 128) (Cert.Stages.aggr Ideal x0 (Cert.Stages.h1 Ideal x1 x2)) x3 zero) x4 :=
  (Cert.Layer.dotGeneral_eq_prod (A := 100000) (K := 128) (B := 128) _ rfl rfl rfl rfl rfl rfl _ x4).trans
    (congrArg (fun Z => Cert.Layer.prod (A := 100000) (K := 128) (B := 128) Z x4) (hidden_eq _ x3))

theorem out_eq (x0 : IVec Cert.ReferenceIdeal.S2x1600000 32) (x1 : FVec Ideal Cert.ReferenceIdeal.S100000x128 .f32)
    (x2 : FVec Ideal Cert.ReferenceIdeal.S128x128 .f32) (x3 : FVec Ideal Cert.ReferenceIdeal.S128 .f32)
    (x4 : FVec Ideal Cert.ReferenceIdeal.S128x128 .f32) (x5 : FVec Ideal Cert.ReferenceIdeal.S128 .f32)
    (x6 : FVec Ideal Cert.ReferenceIdeal.S128x10 .f32) (x7 : FVec Ideal Cert.ReferenceIdeal.S10 .f32) :
    Cert.Stages.out Ideal x0 x1 x2 x3 x4 x5 x6 x7
      = Cert.Layer.addRow (A := 100000) (B := 10)
          (Cert.Layer.prod (A := 100000) (K := 128) (B := 10)
            (Cert.Layer.act (A := 100000) (K := 128) (Cert.Stages.aggr Ideal x0 (Cert.Stages.h2 Ideal x0 x1 x2 x3 x4)) x5 zero) x6)
          x7 :=
  (Cert.Layer.hostAddRow_eq (A := 100000) (B := 10) _ x7 _ _).trans
    (congrArg (fun Y => Cert.Layer.addRow (A := 100000) (B := 10) Y x7)
      ((Cert.Layer.dotGeneral_eq_prod (A := 100000) (K := 128) (B := 10) _ rfl rfl rfl rfl rfl rfl _ x6).trans
        (congrArg (fun Z => Cert.Layer.prod (A := 100000) (K := 128) (B := 10) Z x6) (hidden_eq _ x5))))

/-! ## The regions' arrays through @main -/

variable (m : (ℓ : Loc nD τ sig) → Buf (Elt Ideal) ℓ) (ρ : Dev nD → PrngReg)

/-- The first region leaves X·W1. -/
theorem first (c : Dev nD) :
    W4 m ρ c (Proc.devRef .tc main_v32)
      = Cert.Stages.h1 Ideal (m ((c : Thread nD τ).loc main_arg1)) (m ((c : Thread nD τ).loc main_arg2)) := by
  refine ((W4_arr m ρ c 2).trans ((Cert.KernelIdeal.Arrays.array0 (V3 m ρ) c).trans ?_)).trans (h1_eq _ _).symm
  exact congrArg₂ (Cert.Layer.prod (A := 100000) (K := 128) (B := 128))
    (Cert.KernelIdeal.Walk.W3_arg1 m ρ c) (Cert.KernelIdeal.Walk.W3_arg2 m ρ c)

/-- The second region leaves hidden(aggr(X·W1), b1)·W2. -/
theorem second (c : Dev nD) :
    W6 m ρ c (Proc.devRef .tc main_v47)
      = Cert.Stages.h2 Ideal (m ((c : Thread nD τ).loc main_arg0)) (m ((c : Thread nD τ).loc main_arg1))
          (m ((c : Thread nD τ).loc main_arg2)) (m ((c : Thread nD τ).loc main_arg3)) (m ((c : Thread nD τ).loc main_arg4)) := by
  refine ((W6_arr m ρ c 3).trans ((Cert.KernelIdeal.Arrays.array1 (V5 m ρ) c).trans ?_)).trans (h2_eq _ _ _ _ _).symm
  have e45 := (Cert.KernelIdeal.Walk.W5_agg m ρ c).trans
    (congrArg (Cert.Stages.aggr Ideal (m ((c : Thread nD τ).loc main_arg0))) (first m ρ c))
  exact congrArg₂ (Cert.Layer.prod (A := 100000) (K := 128) (B := 128))
    ((congrArg₂ (fun Z b => Cert.Layer.actRow (A := 100000) (K := 128) Z b zero) e45 (Cert.KernelIdeal.Walk.W5_bias m ρ c)).trans
      (Cert.Layer.actRow_cast (A := 100000) (K := 128) _ _ _ zero))
    (Cert.KernelIdeal.Walk.W5_arg4 m ρ c)

/-- The third region leaves the network's result. -/
theorem result (c : Dev nD) :
    W8 m ρ c (Proc.devRef .tc main_v63)
      = Cert.Stages.out Ideal (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine ((W8_arr m ρ c 4).trans ((Cert.KernelIdeal.Arrays.array2 (V7 m ρ) c).trans ?_)).trans (out_eq _ _ _ _ _ _ _ _).symm
  have e60 := (Cert.KernelIdeal.Walk.W7_agg m ρ c).trans
    (congrArg (Cert.Stages.aggr Ideal (m ((c : Thread nD τ).loc main_arg0))) (second m ρ c))
  exact (congrArg₂ (Cert.Layer.addRowRow (A := 100000) (B := 10))
      (congrArg₂ (Cert.Layer.prod (A := 100000) (K := 128) (B := 10))
        ((congrArg₂ (fun Z b => Cert.Layer.actRow (A := 100000) (K := 128) Z b zero) e60 (Cert.KernelIdeal.Walk.W7_bias m ρ c)).trans
          (Cert.Layer.actRow_cast (A := 100000) (K := 128) _ _ _ zero))
        (Cert.KernelIdeal.Walk.W7_arg6 m ρ c))
      (Cert.KernelIdeal.Walk.W7_obias m ρ c)).trans
    (Cert.Layer.addRowRow_cast (A := 100000) (B := 10) _ _ _)

/-! ## The run -/

/-- Every weakly fair execution of the idealized kernel terminates with the result buffer at the network of the
    arguments, and the arguments as launched. -/
theorem run : θ_run defs (onTc (τ := τ) (main (F := Ideal))) ⟨m, fun _ => 0, ρ⟩ (fun r => ∀ c : Dev nD,
      r.2.mem ((c.tc : Thread nD τ).loc main_v63)
        = Cert.Stages.out Ideal (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Cert.KernelIdeal.Named.run m ρ)

end Cert.KernelIdeal.KValue

end
-- ==== Proof.lean ====
/-
  The proof of `Cert.Claim`: a two-layer graph convolution network with a linear head, whose three dense stages are
  Pallas kernels over 20 blocks of 5000 node rows, against the plain jnp network.

  Both programs do the same graph bookkeeping and the same gather–scale–scatter aggregation on the host; they differ
  only in the dense stages. On the extended reals a change of float format is the identity and a matrix product
  accumulated into zero is the plain sum over the contracted axis, so each kernel region leaves, block by block, exactly
  the whole-array function the reference's stage computes: X·W1; hidden(·, b1)·W2; hidden(·, b2)·Wout + bout, where
  hidden(Z, b) = max(Z + b, 0) with the bias added to every row. The aggregation between the stages is applied by both
  programs to equal arrays and is never opened. No law used needs finiteness, so the precondition is not opened.

  * the frames of the two kernel programs are the generated frame certificates; the reference's frame is its run with
    the result dropped;
  * the ideal pass rewrote nothing, so `preserves` is trivial;
  * `algebraic`: both runs end with the result buffer at `Cert.Stages.out` of the arguments (`KValue.run`, and the
    reference's run with `RefValue.res_eq`), and the arguments agree.
-/
import proofs.«179236_j27951647163111_1_alg».proof.Defs
import proofs.«179236_j27951647163111_1_alg».proof.Proof.Gen.Kernel
import proofs.«179236_j27951647163111_1_alg».proof.Proof.Gen.Kernel.Skeleton
import proofs.«179236_j27951647163111_1_alg».proof.Proof.Gen.Kernel.Launch
import proofs.«179236_j27951647163111_1_alg».proof.Proof.Gen.Kernel.Points
import proofs.«179236_j27951647163111_1_alg».proof.Proof.Gen.Kernel.Frame
import proofs.«179236_j27951647163111_1_alg».proof.Proof.Gen.KernelIdeal
import proofs.«179236_j27951647163111_1_alg».proof.Proof.Gen.KernelIdeal.Skeleton
import proofs.«179236_j27951647163111_1_alg».proof.Proof.Gen.KernelIdeal.Launch
import proofs.«179236_j27951647163111_1_alg».proof.Proof.Gen.KernelIdeal.Points
import proofs.«179236_j27951647163111_1_alg».proof.Proof.Gen.KernelIdeal.Frame
import proofs.«179236_j27951647163111_1_alg».proof.Proof.Gen.ReferenceIdeal
import proofs.«179236_j27951647163111_1_alg».proof.Proof.Gen.Pre_finite_inputs
import proofs.«179236_j27951647163111_1_alg».proof.Proof.RefRunP
import proofs.«179236_j27951647163111_1_alg».proof.Proof.RefValue
import proofs.«179236_j27951647163111_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result at the network of the (agreeing) arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.RefValue.res_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
